-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S64x8x3 : Shape := ⟨3, ![64, 8, 3]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S64x8x3 : S_.BroadcastsInDim S64x8x3 (![] : Fin 0 → Fin S64x8x3.rank)
  reducesTo_S64x8x3_S_d0_1_2 : S64x8x3.ReducesTo [0, 1, 2] S_

variable [Facts]

def fn {F : FTy → Type} [FloatOps F] (main_arg0 : FVec F S8192x128 .f32) (main_arg1 : FVec F S8192x128 .f32) (main_arg2 : FVec F S64x8x3 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x8x3 .f32 := Host.absf main_arg2
  let main_cst_2 : FVec F S_ .f32 := constant S_ .f32 0x7F800000#32
  let main_v10 : FVec F S64x8x3 .f32 := broadcastInDim S64x8x3 ![] bcast_S_S64x8x3 main_cst_2
  let main_v11 : IVec S64x8x3 1 := cmpf .olt main_v9 main_v10
  let main_c_3 : IVec S_ 1 := constantI S_ 1 1#1
  let main_v12 : IVec S_ 1 := (fun x v => Host.reduce IntOp.andi x v reducesTo_S64x8x3_S_d0_1_2 h_S_) main_v11 main_c_3
  let main_v13 : IVec S_ 1 := andi main_v8 main_v12
  main_v13
-- ==== Kernel.lean ====
abbrev S8192x128 : Shape := ⟨2, ![8192, 128]⟩
abbrev S64x8x3 : Shape := ⟨3, ![64, 8, 3]⟩
abbrev S8 : Shape := ⟨1, ![8]⟩
abbrev S_ : Shape := ⟨0, ![]⟩
abbrev S8192x256 : Shape := ⟨2, ![8192, 256]⟩
abbrev S1 : Shape := ⟨1, ![1]⟩
abbrev S8192 : Shape := ⟨1, ![8192]⟩
abbrev S8x1 : Shape := ⟨2, ![8, 1]⟩
abbrev S8192x8 : Shape := ⟨2, ![8192, 8]⟩
abbrev S64x8x1 : Shape := ⟨3, ![64, 8, 1]⟩
abbrev S64x8 : Shape := ⟨2, ![64, 8]⟩
abbrev S8192x64 : Shape := ⟨2, ![8192, 64]⟩
abbrev S8192x1 : Shape := ⟨2, ![8192, 1]⟩
abbrev S64x8192 : Shape := ⟨2, ![64, 8192]⟩
abbrev S8192x8192 : Shape := ⟨2, ![8192, 8192]⟩
abbrev S1024x64 : Shape := ⟨2, ![1024, 64]⟩
abbrev S64x4096 : Shape := ⟨2, ![64, 4096]⟩
abbrev S1024x4096 : Shape := ⟨2, ![1024, 4096]⟩

abbrev nBuf : Space → Nat
  | .hbm => 63
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S64x8x3, .f32⟩
  | .hbm, ⟨3, _⟩ => ⟨S8, .i32⟩
  | .hbm, ⟨4, _⟩ => ⟨S8, .i1⟩
  | .hbm, ⟨5, _⟩ => ⟨S8, .i32⟩
  | .hbm, ⟨6, _⟩ => ⟨S8, .i1⟩
  | .hbm, ⟨7, _⟩ => ⟨S_, .f32⟩
  | .hbm, ⟨8, _⟩ => ⟨S8192x256, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S8192, .f32⟩
  | .hbm, ⟨13, _⟩ => ⟨S8192x256, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8192x8, .f32⟩
  | .hbm, ⟨20, _⟩ => ⟨S64x8x1, .f32⟩
  | .hbm, ⟨21, _⟩ => ⟨S64x8, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192x256, .f32⟩
  | .hbm, ⟨35, _⟩ => ⟨S_, .i32⟩
  | .hbm, ⟨36, _⟩ => ⟨S1, .i32⟩
  | .hbm, ⟨37, _⟩ => ⟨S_, .f32⟩
  | .hbm, ⟨38, _⟩ => ⟨S8192, .f32⟩
  | .hbm, ⟨39, _⟩ => ⟨S8192x256, .f32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S8, .i32⟩
  | .hbm, ⟨44, _⟩ => ⟨S8x1, .i32⟩
  | .hbm, ⟨45, _⟩ => ⟨S8192x8, .f32⟩
  | .hbm, ⟨46, _⟩ => ⟨S64x8x1, .f32⟩
  | .hbm, ⟨47, _⟩ => ⟨S64x8, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S8192x64, .bf16⟩
  | .hbm, ⟨60, _⟩ => ⟨S64x8192, .f32⟩
  | .hbm, ⟨61, _⟩ => ⟨S64x8192, .bf16⟩
  | .hbm, ⟨62, _⟩ => ⟨S8192x8192, .f32⟩
  | .local _ .vmem, ⟨0, _⟩ => ⟨S1024x64, .bf16⟩
  | .local _ .vmem, ⟨1, _⟩ => ⟨S64x4096, .bf16⟩
  | .local _ .vmem, ⟨2, _⟩ => ⟨S64x4096, .bf16⟩
  | .local _ .vmem, ⟨3, _⟩ => ⟨S1024x4096, .f32⟩
  | .local _ .vmem, ⟨4, _⟩ => ⟨S1024x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_c_0 : Ref sig .tc := ⟨.hbm, 4, rfl⟩
abbrev main_call0_c_1 : Ref sig .tc := ⟨.hbm, 5, rfl⟩
abbrev main_call0_c_2 : Ref sig .tc := ⟨.hbm, 6, rfl⟩
abbrev main_call0_cst : Ref sig .tc := ⟨.hbm, 7, rfl⟩
abbrev main_call0_v0 : Ref sig .tc := ⟨.hbm, 8, rfl⟩
abbrev main_call0_c_3 : Ref sig .tc := ⟨.hbm, 9, rfl⟩
abbrev main_call0_v1 : Ref sig .tc := ⟨.hbm, 10, rfl⟩
abbrev main_call0_cst_4 : Ref sig .tc := ⟨.hbm, 11, rfl⟩
abbrev main_call0_v2 : Ref sig .tc := ⟨.hbm, 12, rfl⟩
abbrev main_call0_v3 : Ref sig .tc := ⟨.hbm, 13, rfl⟩
abbrev main_call0_c_5 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_call0_v0 : Ref sig .tc := ⟨.hbm, 23, rfl⟩
abbrev main_call0_call0_cst : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_v12 : Ref sig .tc := ⟨.hbm, 27, rfl⟩
abbrev main_call0_cst_6 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_cst_7 : Ref sig .tc := ⟨.hbm, 33, rfl⟩
abbrev main_call0_v17 : Ref sig .tc := ⟨.hbm, 34, rfl⟩
abbrev main_call0_c_8 : Ref sig .tc := ⟨.hbm, 35, rfl⟩
abbrev main_call0_v18 : Ref sig .tc := ⟨.hbm, 36, rfl⟩
abbrev main_call0_cst_9 : Ref sig .tc := ⟨.hbm, 37, rfl⟩
abbrev main_call0_v19 : Ref sig .tc := ⟨.hbm, 38, rfl⟩
abbrev main_call0_v20 : Ref sig .tc := ⟨.hbm, 39, rfl⟩
abbrev main_call0_c_10 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_call1_v0 : Ref sig .tc := ⟨.hbm, 49, rfl⟩
abbrev main_call0_call1_cst : Ref sig .tc := ⟨.hbm, 50, rfl⟩
abbrev main_call0_call1_v1 : Ref sig .tc := ⟨.hbm, 51, rfl⟩
abbrev main_call0_call1_v2 : Ref sig .tc := ⟨.hbm, 52, rfl⟩
abbrev main_call0_v29 : Ref sig .tc := ⟨.hbm, 53, rfl⟩
abbrev main_call0_cst_11 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_v0 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x256 : S_.BroadcastsInDim S8192x256 (![] : Fin 0 → Fin S8192x256.rank)
  bcast_S_S1 : S_.BroadcastsInDim S1 (![] : Fin 0 → Fin S1.rank)
  bcast_S_S8192 : S_.BroadcastsInDim S8192 (![] : Fin 0 → Fin S8192.rank)
  bcast_S_S8 : S_.BroadcastsInDim S8 (![] : Fin 0 → Fin S8.rank)
  bcast_S8_S8x1_0 : S8.BroadcastsInDim S8x1 (![0] : Fin 1 → Fin S8x1.rank)
  slices_S64x8x3_S64x8x1_0_0_0 : S64x8x3.Slices ![0, 0, 0] S64x8x1
  shapeCasts_S64x8x1_S64x8 : S64x8x1.ShapeCasts S64x8
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bitsLt_bf16_f32 : FTy.bits .bf16 < FTy.bits .f32
  transposes_S8192x64_S64x8192_1_0 : S8192x64.Transposes [1, 0] S64x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1024x4096_S1024x4096_0_0 : ∀ a, (![0, 0] : Fin 2 → Nat) a + S1024x4096.size a ≤ S1024x4096.size a
  h_S1024x4096 : 0 < S1024x4096.numel
  scatter_S8192x256_S1_S8192_0_1_1_0_wf : ScatterDims.WF S8192x256 S1 S8192 [0] [1] [1] 0
  gather_S8192x256_S8x1_S8192x8_0_1_n_n_1_1_81921_wf : GatherDims.WF S8192x256 S8x1 S8192x8 [0] [1] [] [1] [] 1 ![8192, 1]
  dot_S8192x8_S64x8_S8192x64_1_1_0_0_n_n_wf : DotDims.WF S8192x8 S64x8 S8192x64 [1] [1] [0] [0] [] []
  dot_S1024x64_S64x4096_S1024x4096_1_0_0_1_n_n_wf : DotDims.WF S1024x64 S64x4096 S1024x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x8192.size a
  hwx0_1 : ∀ i : grid0.Coords, EltTy.bits .bf16 = 32 ∨ (Rect.block (s := S64x8192) S64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S8192x8192.size a
  hwx0_2 : ∀ i : grid0.Coords, EltTy.bits .f32 = 32 ∨ (Rect.block (s := S8192x8192) S1024x4096.size (cc0_transform_2 i) (hinb0_2 i)).WholeWords (EltTy.packing .f32)

variable [Facts₀]

def scatter_S8192x256_S1_S8192_0_1_1_0 : ScatterDims S8192x256 S1 S8192 where
  updateWindowDims := [0]
  insertedWindowDims := [1]
  scatterDimsToOperandDims := [1]
  indexVectorDim := 0
  wf := scatter_S8192x256_S1_S8192_0_1_1_0_wf
def gather_S8192x256_S8x1_S8192x8_0_1_n_n_1_1_81921 : GatherDims S8192x256 S8x1 S8192x8 where
  offsetDims := [0]
  collapsedSliceDims := [1]
  operandBatchingDims := []
  startIndicesBatchingDims := []
  startIndexMap := [1]
  indexVectorDim := 1
  sliceSizes := ![8192, 1]
  wf := gather_S8192x256_S8x1_S8192x8_0_1_n_n_1_1_81921_wf
def dot_S8192x8_S64x8_S8192x64_1_1_0_0_n_n : DotDims S8192x8 S64x8 S8192x64 where
  lhsContracting := [1]
  rhsContracting := [1]
  lhsNonContracting := [0]
  rhsNonContracting := [0]
  lhsBatch := []
  rhsBatch := []
  wf := dot_S8192x8_S64x8_S8192x64_1_1_0_0_n_n_wf
def dot_S1024x64_S64x4096_S1024x4096_1_0_0_1_n_n : DotDims S1024x64 S64x4096 S1024x4096 where
  lhsContracting := [1]
  rhsContracting := [0]
  lhsNonContracting := [0]
  rhsNonContracting := [1]
  lhsBatch := []
  rhsBatch := []
  wf := dot_S1024x64_S64x4096_S1024x4096_1_0_0_1_n_n_wf

abbrev win0_0 : Pipeline.Window sig grid0 :=
  Pipeline.Window.ofSpec (Memref.whole main_call0_v34) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v36) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S64x8x3 : Shape := ⟨3, ![64, 8, 3]⟩
abbrev S8 : Shape := ⟨1, ![8]⟩
abbrev S_ : Shape := ⟨0, ![]⟩
abbrev S8192x256 : Shape := ⟨2, ![8192, 256]⟩
abbrev S1 : Shape := ⟨1, ![1]⟩
abbrev S8192 : Shape := ⟨1, ![8192]⟩
abbrev S8x1 : Shape := ⟨2, ![8, 1]⟩
abbrev S8192x8 : Shape := ⟨2, ![8192, 8]⟩
abbrev S64x8x1 : Shape := ⟨3, ![64, 8, 1]⟩
abbrev S64x8 : Shape := ⟨2, ![64, 8]⟩
abbrev S8192x64 : Shape := ⟨2, ![8192, 64]⟩
abbrev S8192x1 : Shape := ⟨2, ![8192, 1]⟩
abbrev S64x8192 : Shape := ⟨2, ![64, 8192]⟩
abbrev S8192x8192 : Shape := ⟨2, ![8192, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S64x8x3, .f32⟩
  | .hbm, ⟨3, _⟩ => ⟨S8, .i32⟩
  | .hbm, ⟨4, _⟩ => ⟨S8, .i1⟩
  | .hbm, ⟨5, _⟩ => ⟨S8, .i32⟩
  | .hbm, ⟨6, _⟩ => ⟨S8, .i1⟩
  | .hbm, ⟨7, _⟩ => ⟨S_, .f32⟩
  | .hbm, ⟨8, _⟩ => ⟨S8192x256, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S8192, .f32⟩
  | .hbm, ⟨13, _⟩ => ⟨S8192x256, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8192x8, .f32⟩
  | .hbm, ⟨20, _⟩ => ⟨S64x8x1, .f32⟩
  | .hbm, ⟨21, _⟩ => ⟨S64x8, .f32⟩
  | .hbm, ⟨22, _⟩ => ⟨S8192x64, .f32⟩
  | .hbm, ⟨23, _⟩ => ⟨S_, .f32⟩
  | .hbm, ⟨24, _⟩ => ⟨S8192x256, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S8192, .f32⟩
  | .hbm, ⟨29, _⟩ => ⟨S8192x256, .f32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S8192x8, .f32⟩
  | .hbm, ⟨36, _⟩ => ⟨S64x8x1, .f32⟩
  | .hbm, ⟨37, _⟩ => ⟨S64x8, .f32⟩
  | .hbm, ⟨38, _⟩ => ⟨S8192x64, .f32⟩
  | .hbm, ⟨39, _⟩ => ⟨S8192x64, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S64x8192, .f32⟩
  | .hbm, ⟨60, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_v0 : Ref sig .tc := ⟨.hbm, 8, rfl⟩
abbrev main_c_3 : Ref sig .tc := ⟨.hbm, 9, rfl⟩
abbrev main_v1 : Ref sig .tc := ⟨.hbm, 10, rfl⟩
abbrev main_cst_4 : Ref sig .tc := ⟨.hbm, 11, rfl⟩
abbrev main_v2 : Ref sig .tc := ⟨.hbm, 12, rfl⟩
abbrev main_v3 : Ref sig .tc := ⟨.hbm, 13, rfl⟩
abbrev main_c_5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_cst_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S1 : S_.BroadcastsInDim S1 (![] : Fin 0 → Fin S1.rank)
  bcast_S_S8192 : S_.BroadcastsInDim S8192 (![] : Fin 0 → Fin S8192.rank)
  bcast_S_S8 : S_.BroadcastsInDim S8 (![] : Fin 0 → Fin S8.rank)
  bcast_S8_S8x1_0 : S8.BroadcastsInDim S8x1 (![0] : Fin 1 → Fin S8x1.rank)
  slices_S64x8x3_S64x8x1_0_0_0 : S64x8x3.Slices ![0, 0, 0] S64x8x1
  shapeCasts_S64x8x1_S64x8 : S64x8x1.ShapeCasts S64x8
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  scatter_S8192x256_S1_S8192_0_1_1_0_wf : ScatterDims.WF S8192x256 S1 S8192 [0] [1] [1] 0
  gather_S8192x256_S8x1_S8192x8_0_1_n_n_1_1_81921_wf : GatherDims.WF S8192x256 S8x1 S8192x8 [0] [1] [] [1] [] 1 ![8192, 1]
  dot_S8192x8_S64x8_S8192x64_1_1_0_0_n_n_wf : DotDims.WF S8192x8 S64x8 S8192x64 [1] [1] [0] [0] [] []
  dot_S8192x64_S64x8192_S8192x8192_1_0_0_1_n_n_wf : DotDims.WF S8192x64 S64x8192 S8192x8192 [1] [0] [0] [1] [] []

variable [Facts₀]

def scatter_S8192x256_S1_S8192_0_1_1_0 : ScatterDims S8192x256 S1 S8192 where
  updateWindowDims := [0]
  insertedWindowDims := [1]
  scatterDimsToOperandDims := [1]
  indexVectorDim := 0
  wf := scatter_S8192x256_S1_S8192_0_1_1_0_wf
def gather_S8192x256_S8x1_S8192x8_0_1_n_n_1_1_81921 : GatherDims S8192x256 S8x1 S8192x8 where
  offsetDims := [0]
  collapsedSliceDims := [1]
  operandBatchingDims := []
  startIndicesBatchingDims := []
  startIndexMap := [1]
  indexVectorDim := 1
  sliceSizes := ![8192, 1]
  wf := gather_S8192x256_S8x1_S8192x8_0_1_n_n_1_1_81921_wf
def dot_S8192x8_S64x8_S8192x64_1_1_0_0_n_n : DotDims S8192x8 S64x8 S8192x64 where
  lhsContracting := [1]
  rhsContracting := [1]
  lhsNonContracting := [0]
  rhsNonContracting := [0]
  lhsBatch := []
  rhsBatch := []
  wf := dot_S8192x8_S64x8_S8192x64_1_1_0_0_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Gram.lean ====
/-
  The product of two matrices of extended reals, entry by entry: entry (p, q) of the product of an [M, K] array with a
  [K, N] array is the sum over k of (p, k) times (k, q). Both the matrix unit's product into a zero accumulator and the
  host's plain contraction are this function at the ideal values, whatever the operands' float formats (a change of
  format is the identity there).
-/
import Idealize.ShloMosaic.Lib.ValueIdx
import Idealize.ShloMosaic.PureOps.Ideal.Laws
import proofs.«174123_j81003083202739_2_alg».proof.Proof.LibPlain

noncomputable section

namespace Cert.Gram

open Idealize.ShloMosaic Idealize.ShloMosaic.ValueIdx

/-- The matrix product, entry by entry. -/
def prod {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- At the index built from (p, q) it is the sum over k of a(p, k) · b(k, q). -/
theorem prod_ix2 {M K N : Nat} (a : (⟨2, ![M, K]⟩ : Shape).Idx → EReal) (b : (⟨2, ![K, N]⟩ : Shape).Idx → EReal)
    (p : Fin M) (q : Fin N) : prod a b (ix2 p q) = ∑ k : Fin K, a (ix2 p k) * b (ix2 k q) := rfl

/-- The host's plain contraction of two arrays is their product. -/
theorem dotGeneral_eq_prod {M K N : Nat} {φ₁ φ₂ : FTy} (prec : Option ContractPrecision) (sched : HostSchedule)
    (L : FVec Ideal ⟨2, ![M, K]⟩ φ₁) (R : FVec Ideal ⟨2, ![K, N]⟩ φ₂) :
    FloatOps.dotGeneral (DotDims.plain M K N) prec sched L R = prod L R := by
  funext i
  obtain ⟨p, q, rfl⟩ : ∃ (p : Fin M) (q : Fin N), i = ix2 p q := ⟨i 0, i 1, eq_ix2 i⟩
  exact Ideal.dotGeneral_plain_apply prec sched L R p q

/-- The matrix unit's product into a zero accumulator is the same product. -/
theorem matmul_zero_eq_prod {M K N : Nat} {φ₁ φ₂ : FTy} (prec : Option ContractPrecision)
    (L : FVec Ideal ⟨2, ![M, K]⟩ φ₁) (R : FVec Ideal ⟨2, ![K, N]⟩ φ₂) :
    FloatOps.matmul (DotDims.plain M K N) prec L R (constant ⟨2, ![M, N]⟩ .f32 0x00000000#32) = prod L R := by
  funext i
  obtain ⟨p, q, rfl⟩ : ∃ (p : Fin M) (q : Fin N), i = ix2 p q := ⟨i 0, i 1, eq_ix2 i⟩
  exact Ideal.matmul_plain_zero_apply prec L R p q

end Cert.Gram

end
-- ==== Proof.Tiles.lean ====
/-
  What the kernel leaves in its output array. Each grid point (i, j) multiplies block i of the left operand (1024 rows,
  all 64 columns) by block j of the right operand (all 64 rows, 4096 columns) into a zero accumulator and writes the
  result to block (i, j) of the output. A block of a matrix product is the product of the corresponding row block and
  column block, so every point writes the block of ONE function of the two operand arrays, their product; the sixteen
  blocks tile the output, so after the run the output array is that product.
-/
import proofs.«174123_j81003083202739_2_alg».proof.Proof.Gen.KernelIdeal.Value
import proofs.«174123_j81003083202739_2_alg».proof.Proof.Gram

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-- A block of a product is the product of the blocks: if the left block's rows are the output block's rows and it
    keeps every column, and the right block's columns are the output block's columns and it keeps every row, then the
    product of the two blocks at an index is the product of the whole arrays at the index's place in the output. -/
theorem prod_tile {M K N a b : Nat} (A : (⟨2, ![M, K]⟩ : Shape).Idx → EReal) (B : (⟨2, ![K, N]⟩ : Shape).Idx → EReal)
    (e0 : (⟨2, ![a, K]⟩ : Shape).Idx → (⟨2, ![M, K]⟩ : Shape).Idx) (e1 : (⟨2, ![K, b]⟩ : Shape).Idx → (⟨2, ![K, N]⟩ : Shape).Idx)
    (e2 : (⟨2, ![a, b]⟩ : Shape).Idx → (⟨2, ![M, N]⟩ : Shape).Idx)
    (h0 : ∀ (r : Fin a) (k : Fin K) (s : Fin b), e0 (ix2 r k) = ix2 (e2 (ix2 r s) 0) k)
    (h1 : ∀ (r : Fin a) (k : Fin K) (s : Fin b), e1 (ix2 k s) = ix2 k (e2 (ix2 r s) 1))
    (y : (⟨2, ![a, b]⟩ : Shape).Idx) :
    Cert.Gram.prod (fun z => A (e0 z)) (fun z => B (e1 z)) y = Cert.Gram.prod A B (e2 y) := by
  obtain ⟨r, s, rfl⟩ : ∃ (r : Fin a) (s : Fin b), y = ix2 r s := ⟨y 0, y 1, eq_ix2 y⟩
  rw [Cert.Gram.prod_ix2]
  unfold Cert.Gram.prod
  exact Finset.sum_congr rfl fun k _ => by rw [h0 r k s, h1 r k s]; rfl

variable (m : (ℓ : Loc nD τ sig) → Buf (Elt Ideal) ℓ) (ρ : Dev nD → PrngReg)

theorem zero_offsets : (![0, 0] : Fin 2 → Nat) = fun _ => 0 := funext fun a => by fin_cases a <;> rfl

/-- The body's stored value is the product of its two loaded blocks (the shape casts are to the same shape, the
    accumulator is zero, a block keeps its float format's values). -/
theorem pay_eq (x0 : FVec Ideal S1024x64 .bf16) (x1 : FVec Ideal S64x4096 .bf16) :
    k0_pay1 (F := Ideal) x0 x1 = Cert.Gram.prod x0 x1 := by
  unfold k0_pay1
  rw [shapeCast_self, shapeCast_self]
  exact Cert.Gram.matmul_zero_eq_prod (M := 1024) (K := 64) (N := 4096) none x0 x1

/-- The printed index maps over the sixteen grid points: the left operand's row block is the output's and it has one
    column block; the right operand's column block is the output's and it has one row block; the output's block
    indices stay in their ranges. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 1 :=
  (by decide +kernel : ∀ t : Fin grid0.N, _)

/-- Every output block is some point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- What point `t` writes back is block `t` of the product of the two operand arrays as the region finds them. -/
theorem flushed_eq (c : Dev nD) (t : Fin cfg0.N) :
    (dats m 0 c).flushed 2 t
      = ((cfg0.win 2).blk t).view.read (Elt Ideal) (Cert.Gram.prod (V m c main_call0_v34) (V m c main_call0_v36)) := by
  rw [Cert.KernelIdeal.Value.flushed2]
  unfold out0_2
  rw [View.canon_unit_zero zero_offsets]
  simp only [View.ld_unit_zero (S := S1024x64) zero_offsets, View.ld_unit_zero (S := S64x4096) zero_offsets]
  rw [pay_eq]
  obtain ⟨f0, f1, f2, f3, -, -⟩ := idx_facts t
  funext j
  show Cert.Gram.prod (fun z => V m c main_call0_v34 (((cfg0.win 0).blk t).view.emb z))
      (fun z => V m c main_call0_v36 (((cfg0.win 1).blk t).view.emb z)) j
    = Cert.Gram.prod (V m c main_call0_v34) (V m c main_call0_v36) (((cfg0.win 2).blk t).view.emb j)
  refine prod_tile (V m c main_call0_v34) (V m c main_call0_v36) ((cfg0.win 0).blk t).view.emb ((cfg0.win 1).blk t).view.emb
    ((cfg0.win 2).blk t).view.emb ?_ ?_ j
  · intro r k s
    funext a; apply Fin.ext
    match a with
    | ⟨0, _⟩ => show win0_0.index t (0 : Fin 2) * 1024 + 1 * r.val = win0_2.index t (0 : Fin 2) * 1024 + 1 * r.val; omega
    | ⟨1, _⟩ => show win0_0.index t (1 : Fin 2) * 64 + 1 * k.val = k.val; omega
  · intro r k s
    funext a; apply Fin.ext
    match a with
    | ⟨0, _⟩ => show win0_1.index t (0 : Fin 2) * 64 + 1 * k.val = k.val; omega
    | ⟨1, _⟩ => show win0_1.index t (1 : Fin 2) * 4096 + 1 * s.val = win0_2.index t (1 : Fin 2) * 4096 + 1 * s.val; omega

/-- An index of the output is in point `t`'s block iff each coordinate is in the block's range on its axis. -/
theorem mem_blk (t : Fin cfg0.N) (i : S8192x8192.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_v0).slice (win0_2.rect t)).set ↔ _
  rw [View.set_slice_whole, Rect.mem_set_unit]
  exact Iff.rfl

/-- The blocks tile the output: index (p, q) is in the block of the point whose block indices are p / 1024, q / 4096. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 4096, by omega⟩
  have q0 : win0_2.index t (0 : Fin 2) = (i 0).val / 1024 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- The output array after the run is the product of the two operand arrays as the region finds them. -/
theorem final (c : Dev nD) :
    (dats m 0 c).arrAt 2 cfg0.N = Cert.Gram.prod (V m c main_call0_v34) (V m c main_call0_v36) :=
  (dats m 0 c).arrAt_eq_of_cover 2 (Cert.Gram.prod (V m c main_call0_v34) (V m c main_call0_v36))
    (fun t _ => flushed_eq m c t) cover

/-- The kernel program's run with its result named: the product of the two operand arrays the host operations before
    the region leave; the argument arrays end unchanged. -/
theorem run : θ_run defs (onTc (τ := τ) (main (F := Ideal))) ⟨m, fun _ => 0, ρ⟩ fun r => ∀ c : Dev nD,
      r.2.mem ((c : Thread nD τ).loc main_v0) = Cert.Gram.prod (V m c main_call0_v34) (V m c main_call0_v36)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Tiles

end
-- ==== Proof.RefLine.lean ====
/-
  The reference program read as a straight line. Its entry function builds, twice over, the projected features of the
  basis array (a one-hot table scattered into zeros, eight of its columns gathered, the product of those columns with the
  first slab of the basis), divides each row by its Euclidean norm plus a small constant (the norm a function called
  twice, read here operation by operation at each call), transposes the second quotient and multiplies the two.
  Listed in order, the operations are one sequence of host steps; every weakly fair execution of the program runs
  that sequence, so each buffer ends at the fold of the list over the launch contents.
-/
import proofs.«174123_j81003083202739_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's 58 host operations in order, the two calls of the norm function written out at their call sites
    over each call's own buffers. -/
abbrev ops : List (HloOp τ sig (Elt F)) :=
  [ nullary main_c (fun i => lit0 (S8.rowMajor i)),
    nullary main_c_0 (constantI S8 1 0#1),
    nullary main_c_1 (fun i => lit1 (S8.rowMajor i)),
    nullary main_c_2 (constantI S8 1 0#1),
    nullary main_cst (constant S_ .f32 0x00000000#32),
    unary main_cst main_v0 (broadcastInDim S8192x256 ![] bcast_S_S8192x256 : (⟨S_, .f32⟩ : BufTy).Contents (Elt F) → (⟨S8192x256, .f32⟩ : BufTy).Contents (Elt F)),
    nullary main_c_3 (constantI S_ 32 0#32),
    unary main_c_3 main_v1 (broadcastInDim S1 ![] bcast_S_S1 : (⟨S_, .i32⟩ : BufTy).Contents (Elt F) → (⟨S1, .i32⟩ : BufTy).Contents (Elt F)),
    nullary main_cst_4 (constant S_ .f32 0x3F800000#32),
    unary main_cst_4 main_v2 (broadcastInDim S8192 ![] bcast_S_S8192 : (⟨S_, .f32⟩ : BufTy).Contents (Elt F) → (⟨S8192, .f32⟩ : BufTy).Contents (Elt F)),
    ternary main_v0 main_v1 main_v2 main_v3 ((fun x i u => Host.scatter scatter_S8192x256_S1_S8192_0_1_1_0 (fun _ b => b) x i u) : (⟨S8192x256, .f32⟩ : BufTy).Contents (Elt F) → (⟨S1, .i32⟩ : BufTy).Contents (Elt F) → (⟨S8192, .f32⟩ : BufTy).Contents (Elt F) → (⟨S8192x256, .f32⟩ : BufTy).Contents (Elt F)),
    nullary main_c_5 (constantI S_ 32 256#32),
    unary main_c_5 main_v4 (broadcastInDim S8 ![] bcast_S_S8 : (⟨S_, .i32⟩ : BufTy).Contents (Elt F) → (⟨S8, .i32⟩ : BufTy).Contents (Elt F)),
    binary main_c main_v4 main_v5 (addi : (⟨S8, .i32⟩ : BufTy).Contents (Elt F) → (⟨S8, .i32⟩ : BufTy).Contents (Elt F) → (⟨S8, .i32⟩ : BufTy).Contents (Elt F)),
    ternary main_c_0 main_v5 main_c main_v6 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v6 main_v7 (broadcastInDim S8x1 ![0] bcast_S8_S8x1_0 : (⟨S8, .i32⟩ : BufTy).Contents (Elt F) → (⟨S8x1, .i32⟩ : BufTy).Contents (Elt F)),
    binary main_v3 main_v7 main_v8 ((fun x i => Host.gather gather_S8192x256_S8x1_S8192x8_0_1_n_n_1_1_81921 x i) : (⟨S8192x256, .f32⟩ : BufTy).Contents (Elt F) → (⟨S8x1, .i32⟩ : BufTy).Contents (Elt F) → (⟨S8192x8, .f32⟩ : BufTy).Contents (Elt F)),
    unary main_arg2 main_v9 ((extractStridedSlice S64x8x1 ![0, 0, 0] · slices_S64x8x3_S64x8x1_0_0_0) : (⟨S64x8x3, .f32⟩ : BufTy).Contents (Elt F) → (⟨S64x8x1, .f32⟩ : BufTy).Contents (Elt F)),
    reshape main_v9 main_v10 rfl shapeCasts_S64x8x1_S64x8,
    binary main_v8 main_v10 main_v11 ((fun l r => Host.dotGeneral dot_S8192x8_S64x8_S8192x64_1_1_0_0_n_n none l r) : (⟨S8192x8, .f32⟩ : BufTy).Contents (Elt F) → (⟨S64x8, .f32⟩ : BufTy).Contents (Elt F) → (⟨S8192x64, .f32⟩ : BufTy).Contents (Elt F)),
    nullary main_cst_6 (constant S_ .f32 0x00000000#32),
    unary main_cst_6 main_v12 (broadcastInDim S8192x256 ![] bcast_S_S8192x256 : (⟨S_, .f32⟩ : BufTy).Contents (Elt F) → (⟨S8192x256, .f32⟩ : BufTy).Contents (Elt F)),
    nullary main_c_7 (constantI S_ 32 0#32),
    unary main_c_7 main_v13 (broadcastInDim S1 ![] bcast_S_S1 : (⟨S_, .i32⟩ : BufTy).Contents (Elt F) → (⟨S1, .i32⟩ : BufTy).Contents (Elt F)),
    nullary main_cst_8 (constant S_ .f32 0x3F800000#32),
    unary main_cst_8 main_v14 (broadcastInDim S8192 ![] bcast_S_S8192 : (⟨S_, .f32⟩ : BufTy).Contents (Elt F) → (⟨S8192, .f32⟩ : BufTy).Contents (Elt F)),
    ternary main_v12 main_v13 main_v14 main_v15 ((fun x i u => Host.scatter scatter_S8192x256_S1_S8192_0_1_1_0 (fun _ b => b) x i u) : (⟨S8192x256, .f32⟩ : BufTy).Contents (Elt F) → (⟨S1, .i32⟩ : BufTy).Contents (Elt F) → (⟨S8192, .f32⟩ : BufTy).Contents (Elt F) → (⟨S8192x256, .f32⟩ : BufTy).Contents (Elt F)),
    nullary main_c_9 (constantI S_ 32 256#32),
    unary main_c_9 main_v16 (broadcastInDim S8 ![] bcast_S_S8 : (⟨S_, .i32⟩ : BufTy).Contents (Elt F) → (⟨S8, .i32⟩ : BufTy).Contents (Elt F)),
    binary main_c_1 main_v16 main_v17 (addi : (⟨S8, .i32⟩ : BufTy).Contents (Elt F) → (⟨S8, .i32⟩ : BufTy).Contents (Elt F) → (⟨S8, .i32⟩ : BufTy).Contents (Elt F)),
    ternary main_c_2 main_v17 main_c_1 main_v18 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v18 main_v19 (broadcastInDim S8x1 ![0] bcast_S8_S8x1_0 : (⟨S8, .i32⟩ : BufTy).Contents (Elt F) → (⟨S8x1, .i32⟩ : BufTy).Contents (Elt F)),
    binary main_v15 main_v19 main_v20 ((fun x i => Host.gather gather_S8192x256_S8x1_S8192x8_0_1_n_n_1_1_81921 x i) : (⟨S8192x256, .f32⟩ : BufTy).Contents (Elt F) → (⟨S8x1, .i32⟩ : BufTy).Contents (Elt F) → (⟨S8192x8, .f32⟩ : BufTy).Contents (Elt F)),
    unary main_arg2 main_v21 ((extractStridedSlice S64x8x1 ![0, 0, 0] · slices_S64x8x3_S64x8x1_0_0_0) : (⟨S64x8x3, .f32⟩ : BufTy).Contents (Elt F) → (⟨S64x8x1, .f32⟩ : BufTy).Contents (Elt F)),
    reshape main_v21 main_v22 rfl shapeCasts_S64x8x1_S64x8,
    binary main_v20 main_v22 main_v23 ((fun l r => Host.dotGeneral dot_S8192x8_S64x8_S8192x64_1_1_0_0_n_n none l r) : (⟨S8192x8, .f32⟩ : BufTy).Contents (Elt F) → (⟨S64x8, .f32⟩ : BufTy).Contents (Elt F) → (⟨S8192x64, .f32⟩ : BufTy).Contents (Elt F)),
    TRef.binary (.of main_v11) (.of main_v11) main_call0.v0 mulf,
    TRef.nullary main_call0.cst (constant S_ .f32 0x00000000#32),
    TRef.binary main_call0.v0 main_call0.cst main_call0.v1 (fun x v => Host.reduceAdd x v reducesTo_S8192x64_S8192_d1 h_S_),
    TRef.unary main_call0.v1 main_call0.v2 (broadcastInDim S8192x1 ![0] bcast_S8192_S8192x1_0),
    TRef.unary main_call0.v2 main_call0.v3 Host.sqrt,
    nullary main_cst_10 (constant S_ .f32 0x322BCC77#32),
    unary main_cst_10 main_v25 (broadcastInDim S8192x1 ![] bcast_S_S8192x1 : (⟨S_, .f32⟩ : BufTy).Contents (Elt F) → (⟨S8192x1, .f32⟩ : BufTy).Contents (Elt F)),
    binary main_v24 main_v25 main_v26 (addf : (⟨S8192x1, .f32⟩ : BufTy).Contents (Elt F) → (⟨S8192x1, .f32⟩ : BufTy).Contents (Elt F) → (⟨S8192x1, .f32⟩ : BufTy).Contents (Elt F)),
    unary main_v26 main_v27 (broadcastInDim S8192x64 ![0, 1] bcast_S8192x1_S8192x64_0_1 : (⟨S8192x1, .f32⟩ : BufTy).Contents (Elt F) → (⟨S8192x64, .f32⟩ : BufTy).Contents (Elt F)),
    binary main_v11 main_v27 main_v28 (Host.divf : (⟨S8192x64, .f32⟩ : BufTy).Contents (Elt F) → (⟨S8192x64, .f32⟩ : BufTy).Contents (Elt F) → (⟨S8192x64, .f32⟩ : BufTy).Contents (Elt F)),
    TRef.binary (.of main_v23) (.of main_v23) main_call1.v0 mulf,
    TRef.nullary main_call1.cst (constant S_ .f32 0x00000000#32),
    TRef.binary main_call1.v0 main_call1.cst main_call1.v1 (fun x v => Host.reduceAdd x v reducesTo_S8192x64_S8192_d1 h_S_),
    TRef.unary main_call1.v1 main_call1.v2 (broadcastInDim S8192x1 ![0] bcast_S8192_S8192x1_0),
    TRef.unary main_call1.v2 main_call1.v3 Host.sqrt,
    nullary main_cst_11 (constant S_ .f32 0x322BCC77#32),
    unary main_cst_11 main_v30 (broadcastInDim S8192x1 ![] bcast_S_S8192x1 : (⟨S_, .f32⟩ : BufTy).Contents (Elt F) → (⟨S8192x1, .f32⟩ : BufTy).Contents (Elt F)),
    binary main_v29 main_v30 main_v31 (addf : (⟨S8192x1, .f32⟩ : BufTy).Contents (Elt F) → (⟨S8192x1, .f32⟩ : BufTy).Contents (Elt F) → (⟨S8192x1, .f32⟩ : BufTy).Contents (Elt F)),
    unary main_v31 main_v32 (broadcastInDim S8192x64 ![0, 1] bcast_S8192x1_S8192x64_0_1 : (⟨S8192x1, .f32⟩ : BufTy).Contents (Elt F) → (⟨S8192x64, .f32⟩ : BufTy).Contents (Elt F)),
    binary main_v23 main_v32 main_v33 (Host.divf : (⟨S8192x64, .f32⟩ : BufTy).Contents (Elt F) → (⟨S8192x64, .f32⟩ : BufTy).Contents (Elt F) → (⟨S8192x64, .f32⟩ : BufTy).Contents (Elt F)),
    unary main_v33 main_v34 ((transpose S64x8192 [1, 0] · transposes_S8192x64_S64x8192_1_0) : (⟨S8192x64, .f32⟩ : BufTy).Contents (Elt F) → (⟨S64x8192, .f32⟩ : BufTy).Contents (Elt F)),
    binary main_v28 main_v34 main_v35 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) ]

-- the binds of the sequence re-associated: one rewrite per statement
set_option maxRecDepth 2048 in
/-- The entry function is that sequence: the norm function's definition unfolded at its two calls, both sides are one
    chain of host steps once sequencing is re-associated. -/
theorem main_eq (c : Dev nD) : main (F := F) c = seq ops := by
  simp only [main, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., nullary_bufs_sub .., unary_bufs_sub .., nullary_bufs_sub .., unary_bufs_sub .., ternary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., nullary_bufs_sub .., unary_bufs_sub .., nullary_bufs_sub .., unary_bufs_sub .., ternary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub ..⟩

/-- From any memory with zero counters every weakly fair execution of the program terminates, and each TensorCore
    buffer ends at the fold of the operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes an argument buffer: each ends as launched. -/
theorem kept0 (V : Valuation τ sig (Elt F)) : after ops V (main_arg0 : DevRef τ sig) = V (main_arg0 : DevRef τ sig) := by
  after_results_simp
theorem kept1 (V : Valuation τ sig (Elt F)) : after ops V (main_arg1 : DevRef τ sig) = V (main_arg1 : DevRef τ sig) := by
  after_results_simp
theorem kept2 (V : Valuation τ sig (Elt F)) : after ops V (main_arg2 : DevRef τ sig) = V (main_arg2 : DevRef τ sig) := by
  after_results_simp

end Cert.ReferenceIdeal.Line

end
-- ==== Proof.Bridge.lean ====
/-
  The two programs compute one function. Both begin with the same host operations on the basis array: a one-hot table,
  eight of its columns gathered, the product of those columns with the first slab of the basis, and each row divided by
  its Euclidean norm plus a small constant — once for each of the two feature arrays. The kernel's program then
  narrows the first quotient and the transposed second quotient to a shorter float format and hands them to the tiled
  product; the reference transposes the second quotient and contracts it with the first on the host. At the ideal
  values a change of format is the identity and both products are the matrix product, so the reference's result is
  the product of the two arrays the kernel's region is entered with. The shared operations are compared as written,
  operation by operation, never opened: only the buffer each program keeps a value in differs.
-/
import proofs.«174123_j81003083202739_2_alg».proof.Proof.Tiles
import proofs.«174123_j81003083202739_2_alg».proof.Proof.RefLine

noncomputable section

namespace Cert.Bridge

open Idealize.ShloMosaic Idealize.ShloMosaic.TcCoe Idealize.SL.Sem Idealize.ShloMosaic.StableHlo

/-- The reference's last operation, the plain contraction of an [8192, 64] array with a [64, 8192] array, is their
    matrix product. -/
theorem ref_dot_eq (L : FVec Ideal Cert.ReferenceIdeal.S8192x64 .f32) (R : FVec Ideal Cert.ReferenceIdeal.S64x8192 .f32) :
    Host.dotGeneral Cert.ReferenceIdeal.dot_S8192x64_S64x8192_S8192x8192_1_0_0_1_n_n none L R = Cert.Gram.prod L R :=
  Cert.Gram.dotGeneral_eq_prod (M := 8192) (K := 64) (N := 8192) none .single L R

-- the shared operations stay folded while the two sides are compared: their bodies are searches and folds over
-- full-size arrays, and the comparison only has to see that each is applied to equal operands
attribute [local irreducible] Host.gather Host.scatter Host.reduceAdd Host.sqrt Host.divf broadcastInDim transpose
  extractStridedSlice shapeCast in
set_option maxHeartbeats 1000000 in
/-- From contents agreeing on the basis array, the reference's result buffer after its operations is the matrix
    product of the two operand arrays the kernel's host operations leave for its region. -/
theorem result_eq (V : Valuation Cert.KernelIdeal.τ Cert.KernelIdeal.sig (Elt Ideal))
    (V' : Valuation Cert.ReferenceIdeal.τ Cert.ReferenceIdeal.sig (Elt Ideal))
    (h2 : V' (Proc.devRef .tc Cert.ReferenceIdeal.main_arg2) = V (Proc.devRef .tc Cert.KernelIdeal.main_arg2)) :
    after (Cert.ReferenceIdeal.Line.ops (F := Ideal)) V' (Proc.devRef .tc Cert.ReferenceIdeal.main_v35)
      = Cert.Gram.prod (after (Cert.KernelIdeal.Gen.hostOps0 (F := Ideal)) V (Proc.devRef .tc Cert.KernelIdeal.main_call0_v34))
          (after (Cert.KernelIdeal.Gen.hostOps0 (F := Ideal)) V (Proc.devRef .tc Cert.KernelIdeal.main_call0_v36)) := by
  dsimp only [Cert.KernelIdeal.Gen.hostOps0, Cert.ReferenceIdeal.Line.ops]
  after_results_simp
  rw [ref_dot_eq, h2]
  rfl

end Cert.Bridge

end
-- ==== Proof.lean ====
/-
  The kernel's entry point and its reference are one function of the inputs at the ideal values.
  Both programs project the basis array to two [8192, 64] feature arrays by the same host operations (neither reads the
  other two inputs' values) and divide each row by its norm plus a small constant. The reference multiplies the first
  by the transpose of the second on the host. The kernel's program narrows both to a shorter float format — the identity
  at the ideal values — and multiplies them in a grid of sixteen tiles, each tile the product of a row block and a
  column block into a zero accumulator; the tiles cover the output, so its array ends at the same matrix product.
  The word-level kernel and the idealized kernel run by their generated frames; the reference runs as the straight
  line of its host operations; the ideal pass rewrote nothing, so the idealization claim is trivial.
-/
import proofs.«174123_j81003083202739_2_alg».proof.Defs
import proofs.«174123_j81003083202739_2_alg».proof.Proof.Gen.Kernel
import proofs.«174123_j81003083202739_2_alg».proof.Proof.Gen.Kernel.Skeleton
import proofs.«174123_j81003083202739_2_alg».proof.Proof.Gen.Kernel.Launch
import proofs.«174123_j81003083202739_2_alg».proof.Proof.Gen.Kernel.Points
import proofs.«174123_j81003083202739_2_alg».proof.Proof.Gen.Kernel.Frame
import proofs.«174123_j81003083202739_2_alg».proof.Proof.Gen.KernelIdeal
import proofs.«174123_j81003083202739_2_alg».proof.Proof.Gen.KernelIdeal.Skeleton
import proofs.«174123_j81003083202739_2_alg».proof.Proof.Gen.KernelIdeal.Launch
import proofs.«174123_j81003083202739_2_alg».proof.Proof.Gen.KernelIdeal.Points
import proofs.«174123_j81003083202739_2_alg».proof.Proof.Gen.KernelIdeal.Frame
import proofs.«174123_j81003083202739_2_alg».proof.Proof.Gen.KernelIdeal.Value
import proofs.«174123_j81003083202739_2_alg».proof.Proof.Gen.ReferenceIdeal
import proofs.«174123_j81003083202739_2_alg».proof.Proof.Gen.Pre_finite_inputs
import proofs.«174123_j81003083202739_2_alg».proof.Proof.Tiles
import proofs.«174123_j81003083202739_2_alg».proof.Proof.RefLine
import proofs.«174123_j81003083202739_2_alg».proof.Proof.Bridge
import Idealize.ShloMosaic.Adequacy
import Idealize.ShloMosaic.Init

noncomputable section

namespace Cert.Proof

open Idealize.ShloMosaic Idealize.SL.Sem Idealize.ShloMosaic.StableHlo

/-- The word-level kernel program runs, faults nowhere and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations none of which writes an argument buffer. -/
theorem frame_ri : Cert.frame_ReferenceIdeal := fun m ρ _ =>
  (θ_run Cert.ReferenceIdeal.defs _ _).mono
    (fun _ h c => ⟨(h c Cert.ReferenceIdeal.main_arg0).trans (Cert.ReferenceIdeal.Line.kept0 _),
      (h c Cert.ReferenceIdeal.main_arg1).trans (Cert.ReferenceIdeal.Line.kept1 _),
      (h c Cert.ReferenceIdeal.main_arg2).trans (Cert.ReferenceIdeal.Line.kept2 _)⟩)
    (Cert.ReferenceIdeal.Line.run_line (F := Ideal) m ρ)

/-- From memories agreeing on the arguments both idealized programs end with the matrix product of the two
    normalized feature arrays: the kernel's output array tile by tile, the reference's result by its last contraction. -/
theorem algebraic : Cert.algebraic_KernelIdeal_ReferenceIdeal := by
  intro m ρ m' ρ' _ hagree
  refine ⟨fun c => Cert.Gram.prod (Cert.KernelIdeal.Gen.V m c Cert.KernelIdeal.main_call0_v34)
      (Cert.KernelIdeal.Gen.V m c Cert.KernelIdeal.main_call0_v36), Cert.KernelIdeal.Tiles.run m ρ, ?_⟩
  refine (θ_run Cert.ReferenceIdeal.defs _ _).mono
    (fun _ h c => ⟨(h c Cert.ReferenceIdeal.main_v35).trans ?_,
      (h c Cert.ReferenceIdeal.main_arg0).trans (Cert.ReferenceIdeal.Line.kept0 _),
      (h c Cert.ReferenceIdeal.main_arg1).trans (Cert.ReferenceIdeal.Line.kept1 _),
      (h c Cert.ReferenceIdeal.main_arg2).trans (Cert.ReferenceIdeal.Line.kept2 _)⟩)
    (Cert.ReferenceIdeal.Line.run_line (F := Ideal) m' ρ')
  exact Cert.Bridge.result_eq (fun b => m (c, b)) (launchContents m' c) (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
